-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x1024x1 : Shape := ⟨4, ![1024, 50, 1024, 1]⟩
abbrev S1x1x64x1 : Shape := ⟨4, ![1, 1, 64, 1]⟩
abbrev S_ : Shape := ⟨0, ![]⟩

class Facts : Prop where
  bcast_S_S1024x50x1024x1 : S_.BroadcastsInDim S1024x50x1024x1 (![] : Fin 0 → Fin S1024x50x1024x1.rank)
  reducesTo_S1024x50x1024x1_S_d0_1_2_3 : S1024x50x1024x1.ReducesTo [0, 1, 2, 3] S_
  h_S_ : 0 < S_.numel
  bcast_S_S1x1x64x1 : S_.BroadcastsInDim S1x1x64x1 (![] : Fin 0 → Fin S1x1x64x1.rank)
  reducesTo_S1x1x64x1_S_d0_1_2_3 : S1x1x64x1.ReducesTo [0, 1, 2, 3] S_

variable [Facts]

def fn {F : FTy → Type} [FloatOps F] (main_arg0 : FVec F S1024x50x1024x1 .f32) (main_arg1 : FVec F S1x1x64x1 .f32) : IVec S_ 1 :=
  let main_v0 : FVec F S1024x50x1024x1 .f32 := Host.absf main_arg0
  let main_cst : FVec F S_ .f32 := constant S_ .f32 0x7F800000#32
  let main_v1 : FVec F S1024x50x1024x1 .f32 := broadcastInDim S1024x50x1024x1 ![] bcast_S_S1024x50x1024x1 main_cst
  let main_v2 : IVec S1024x50x1024x1 1 := cmpf .olt main_v0 main_v1
  let main_c : IVec S_ 1 := constantI S_ 1 1#1
  let main_v3 : IVec S_ 1 := (fun x v => Host.reduce IntOp.andi x v reducesTo_S1024x50x1024x1_S_d0_1_2_3 h_S_) main_v2 main_c
  let main_v4 : FVec F S1x1x64x1 .f32 := Host.absf main_arg1
  let main_cst_0 : FVec F S_ .f32 := constant S_ .f32 0x7F800000#32
  let main_v5 : FVec F S1x1x64x1 .f32 := broadcastInDim S1x1x64x1 ![] bcast_S_S1x1x64x1 main_cst_0
  let main_v6 : IVec S1x1x64x1 1 := cmpf .olt main_v4 main_v5
  let main_c_1 : IVec S_ 1 := constantI S_ 1 1#1
  let main_v7 : IVec S_ 1 := (fun x v => Host.reduce IntOp.andi x v reducesTo_S1x1x64x1_S_d0_1_2_3 h_S_) main_v6 main_c_1
  let main_v8 : IVec S_ 1 := andi main_v3 main_v7
  main_v8
-- ==== Kernel.lean ====
abbrev S1024x50x1024x1 : Shape := ⟨4, ![1024, 50, 1024, 1]⟩
abbrev S1x1x64x1 : Shape := ⟨4, ![1, 1, 64, 1]⟩
abbrev S1024x50x8x128 : Shape := ⟨4, ![1024, 50, 8, 128]⟩
abbrev S1x64 : Shape := ⟨2, ![1, 64]⟩
abbrev S1024x64 : Shape := ⟨2, ![1024, 64]⟩
abbrev S32x50x8x128 : Shape := ⟨4, ![32, 50, 8, 128]⟩
abbrev S32x64 : Shape := ⟨2, ![32, 64]⟩
abbrev S32x8x128 : Shape := ⟨3, ![32, 8, 128]⟩
abbrev S32x1024 : Shape := ⟨2, ![32, 1024]⟩
abbrev S1024x64x1 : Shape := ⟨3, ![1024, 64, 1]⟩

abbrev nBuf : Space → Nat
  | .hbm => 6
  | .vmem => 5
  | .smem => 0
  | _ => 0

abbrev bufTy : (tb : Table) → Fin (tcTables nBuf tb) → BufTy
  | .hbm, ⟨0, _⟩ => ⟨S1024x50x1024x1, .f32⟩
  | .hbm, ⟨1, _⟩ => ⟨S1x1x64x1, .f32⟩
  | .hbm, ⟨2, _⟩ => ⟨S1024x50x8x128, .f32⟩
  | .hbm, ⟨3, _⟩ => ⟨S1x64, .f32⟩
  | .hbm, ⟨4, _⟩ => ⟨S1024x64, .f32⟩
  | .hbm, ⟨5, _⟩ => ⟨S1024x64x1, .f32⟩
  | .local _ .vmem, ⟨0, _⟩ => ⟨S32x50x8x128, .f32⟩
  | .local _ .vmem, ⟨1, _⟩ => ⟨S32x50x8x128, .f32⟩
  | .local _ .vmem, ⟨2, _⟩ => ⟨S1x64, .f32⟩
  | .local _ .vmem, ⟨3, _⟩ => ⟨S32x64, .f32⟩
  | .local _ .vmem, ⟨4, _⟩ => ⟨S32x64, .f32⟩
  | _, _ => ⟨S1024x50x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x50x1024x1_S1024x50x8x128 : S1024x50x1024x1.ShapeCasts S1024x50x8x128
  shapeCasts_S1x1x64x1_S1x64 : S1x1x64x1.ShapeCasts S1x64
  inb_S32x50x8x128_S32x50x8x128_0_0_0_0 : ∀ a, (![0, 0, 0, 0] : Fin 4 → Nat) a + S32x50x8x128.size a ≤ S32x50x8x128.size a
  h_S32x50x8x128 : 0 < S32x50x8x128.numel
  shapeCasts_S32x50x8x128_S32x50x8x128 : S32x50x8x128.ShapeCasts S32x50x8x128
  reduces_S32x50x8x128_S32x8x128 : S32x50x8x128.Reduces [1] S32x8x128
  shapeCasts_S32x8x128_S32x1024 : S32x8x128.ShapeCasts S32x1024
  iota_S1024x64_d0_w32 : S1024x64.Iotas .tc 32 [0]
  iota_S1024x64_d1_w32 : S1024x64.Iotas .tc 32 [1]
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S32x64_S32x64_0_0 : ∀ a, (![0, 0] : Fin 2 → Nat) a + S32x64.size a ≤ S32x64.size a
  h_S32x64 : 0 < S32x64.numel
  shapeCasts_S1024x64_S1024x64x1 : S1024x64.ShapeCasts S1024x64x1
  dot_S32x1024_S1024x64_S32x64_1_0_0_1_n_n_wf : DotDims.WF S32x1024 S1024x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50x8x128.size a ≤ S1024x50x8x128.size a
  hwx0_0 : ∀ i : grid0.Coords, EltTy.bits .f32 = 32 ∨ (Rect.block (s := S1024x50x8x128) S32x50x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S1024x64.size a
  hwx0_2 : ∀ i : grid0.Coords, EltTy.bits .f32 = 32 ∨ (Rect.block (s := S1024x64) S32x64.size (cc0_transform_2 i) (hinb0_2 i)).WholeWords (EltTy.packing .f32)

variable [Facts₀]

def dot_S32x1024_S1024x64_S32x64_1_0_0_1_n_n : DotDims S32x1024 S1024x64 S32x64 where
  lhsContracting := [1]
  rhsContracting := [0]
  lhsNonContracting := [0]
  rhsNonContracting := [1]
  lhsBatch := []
  rhsBatch := []
  wf := dot_S32x1024_S1024x64_S32x64_1_0_0_1_n_n_wf

abbrev win0_0 : Pipeline.Window sig grid0 :=
  Pipeline.Window.ofSpec (Memref.whole main_v0) S32x50x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x50x1024x1 : Shape := ⟨4, ![1024, 50, 1024, 1]⟩
abbrev S1x1x64x1 : Shape := ⟨4, ![1, 1, 64, 1]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S1024x50x64x1 : Shape := ⟨4, ![1024, 50, 64, 1]⟩
abbrev S1024x64x1 : Shape := ⟨3, ![1024, 64, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x50x1024x1, .f32⟩
  | .hbm, ⟨1, _⟩ => ⟨S1x1x64x1, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S1024x50x64x1, .f32⟩
  | .hbm, ⟨22, _⟩ => ⟨S1024x50x64x1, .i1⟩
  | .hbm, ⟨23, _⟩ => ⟨S_, .f32⟩
  | .hbm, ⟨24, _⟩ => ⟨S1024x50x64x1, .f32⟩
  | .hbm, ⟨25, _⟩ => ⟨S1024x50x64x1, .f32⟩
  | .hbm, ⟨26, _⟩ => ⟨S1024x50x64x1, .f32⟩
  | .hbm, ⟨27, _⟩ => ⟨S1024x50x64x1, .f32⟩
  | .hbm, ⟨28, _⟩ => ⟨S_, .f32⟩
  | .hbm, ⟨29, _⟩ => ⟨S1024x64x1, .f32⟩
  | .hbm, ⟨30, _⟩ => ⟨S_, .f32⟩
  | .hbm, ⟨31, _⟩ => ⟨S1024x64x1, .f32⟩
  | .hbm, ⟨32, _⟩ => ⟨S1024x64x1, .f32⟩
  | _, _ => ⟨S1024x50x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S1024x50x64x1_2 : S64.BroadcastsInDim S1024x50x64x1 (![2] : Fin 1 → Fin S1024x50x64x1.rank)
  bcast_S_S1024x50x64x1 : S_.BroadcastsInDim S1024x50x64x1 (![] : Fin 0 → Fin S1024x50x64x1.rank)
  bcast_S1x1x64x1_S1024x50x64x1_0_1_2_3 : S1x1x64x1.BroadcastsInDim S1024x50x64x1 (![0, 1, 2, 3] : Fin 4 → Fin S1024x50x64x1.rank)
  reducesTo_S1024x50x64x1_S1024x64x1_d1 : S1024x50x64x1.ReducesTo [1] S1024x64x1
  bcast_S_S1024x64x1 : S_.BroadcastsInDim S1024x64x1 (![] : Fin 0 → Fin S1024x64x1.rank)
  gather_S1024x50x1024x1_S64x1_S1024x50x64x1_013_2_n_n_2_1_10245011_wf : GatherDims.WF S1024x50x1024x1 S64x1 S1024x50x64x1 [0, 1, 3] [2] [] [2] [] 1 ![1024, 50, 1, 1]

variable [Facts₀]

def gather_S1024x50x1024x1_S64x1_S1024x50x64x1_013_2_n_n_2_1_10245011 : GatherDims S1024x50x1024x1 S64x1 S1024x50x64x1 where
  offsetDims := [0, 1, 3]
  collapsedSliceDims := [2]
  operandBatchingDims := []
  startIndicesBatchingDims := []
  startIndexMap := [2]
  indexVectorDim := 1
  sliceSizes := ![1024, 50, 1, 1]
  wf := gather_S1024x50x1024x1_S64x1_S1024x50x64x1_013_2_n_n_2_1_10245011_wf

class Facts : Prop extends Facts₀ where

variable [Facts]
-- ==== Proof.Spec.lean ====
/-
  The interaction field of the actor features, as ONE function of the two argument arrays.

  `x : [1024, 50, 1024, 1]` holds, per batch row `b` and step `l`, 1024 features; the 64 ACTOR features are the
  columns `16 a` (`col a`). `k : [1, 1, 64, 1]` holds one weight per actor. The result at `(b, a, 0)` is
  minus the weighted sum over the steps of actor `a`'s feature: written below as the kernel computes it,
  `(∑ l, x[b, l, 16 a, 0]) · (0 − k[0, 0, a, 0])` (`fieldAt`), and the law `neg_sum_mul` says that on FINITE
  values this is `(−1) · ∑ l, k[0, 0, a, 0] · x[b, l, 16 a, 0]`, the form in which the reference computes it.
  On the extended reals the law needs finiteness: with `+∞` and `−∞` among the `x` the two sides differ
  (a negative weight turns `(+∞) + (−∞) = −∞` into `+∞` outside the sum, but each summand's sign inside it).
-/
import Idealize.ShloMosaic.PureOps.Ideal
import Idealize.ShloMosaic.Lib.ValueIdx

noncomputable section

open scoped BigOperators

namespace Cert.Actors

open Idealize.ShloMosaic Idealize.ShloMosaic.ValueIdx

/-- The feature column of actor `a`: `16 a`. -/
def col (a : Fin 64) : Fin 1024 := ⟨16 * a.val, by omega⟩

theorem col_val (a : Fin 64) : (col a).val = 16 * a.val := rfl

/-- The field at batch row `b` and actor `a`: the sum over the 50 steps of the actor's feature, times minus its weight. -/
def fieldAt (x : (⟨4, ![1024, 50, 1024, 1]⟩ : Shape).Idx → EReal) (k : (⟨4, ![1, 1, 64, 1]⟩ : Shape).Idx → EReal)
    (b : Fin 1024) (a : Fin 64) : EReal :=
  (∑ l : Fin 50, x (ix4 b l (col a) (0 : Fin 1))) * (0 - k (ix4 (0 : Fin 1) (0 : Fin 1) a (0 : Fin 1)))

/-- The whole result array `[1024, 64, 1]`. -/
def field (x : (⟨4, ![1024, 50, 1024, 1]⟩ : Shape).Idx → EReal) (k : (⟨4, ![1, 1, 64, 1]⟩ : Shape).Idx → EReal) :
    (⟨3, ![1024, 64, 1]⟩ : Shape).Idx → EReal :=
  fun i => fieldAt x k (i 0) (i 1)

theorem field_apply (x : (⟨4, ![1024, 50, 1024, 1]⟩ : Shape).Idx → EReal) (k : (⟨4, ![1, 1, 64, 1]⟩ : Shape).Idx → EReal)
    (b : Fin 1024) (a : Fin 64) : field x k (ix3 b a (0 : Fin 1)) = fieldAt x k b a := rfl

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW joining the two programs, on finite values: minus one times the sum of the weighted features is the
    sum of the features times minus the weight (distributivity, which the extended reals have on the reals only). -/
theorem neg_sum_mul {n : Nat} (X : Fin n → EReal) (κ : EReal) (hX : ∀ l, ∃ r : ℝ, X l = (r : EReal))
    (hκ : ∃ r : ℝ, κ = (r : EReal)) :
    (-1 : EReal) * ∑ l : Fin n, κ * X l = (∑ l : Fin n, X l) * (0 - κ) := by
  obtain ⟨w, rfl⟩ := hκ
  choose f hf using hX
  have hX' : X = fun l => (f l : EReal) := funext hf
  subst hX'
  have h1 : (∑ l : Fin n, (w : EReal) * (f l : EReal)) = ((∑ l : Fin n, w * f l : ℝ) : EReal) := by
    rw [coe_sum]; exact Finset.sum_congr rfl fun l _ => (EReal.coe_mul _ _).symm
  have h2 : (∑ l : Fin n, (f l : EReal)) = ((∑ l : Fin n, f l : ℝ) : EReal) := (coe_sum _ _).symm
  rw [h1, h2, show (-1 : EReal) = ((-1 : ℝ) : EReal) from by norm_num, show (0 : EReal) = ((0 : ℝ) : EReal) from rfl,
    ← EReal.coe_sub, ← EReal.coe_mul, ← EReal.coe_mul]
  congr 1
  rw [← Finset.mul_sum]; ring

end Cert.Actors

end
-- ==== Proof.Finite.lean ====
/- Under the precondition every entry of both argument arrays is a real number. -/
import proofs.«163311_g10677288698162_week1_w2_857_21_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Actors

open Idealize.ShloMosaic Idealize.ShloMosaic.ValueIdx

/-- The scalar shape has one index. -/
instance subsingleton_scalar_idx : Subsingleton Cert.Pre_finite_inputs.S_.Idx :=
  ⟨fun a b => funext fun d => d.elim0⟩

/-- The f32 pattern 0x7F800000 denotes +inf. -/
theorem ofBits_inf_f32 : Ideal.ofBits .f32 0x7F800000#32 = (⊤ : EReal) := by
  simp [Ideal.ofBits, Ideal.ieee]

/-- An extended real whose absolute value max a (-a) compares strictly below +inf is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | top => simp [Ideal.cmp] at h
  | coe r => exact ⟨r, rfl⟩

theorem finite_of_pre [Cert.Pre_finite_inputs.Facts]
    (x : FVec Ideal Cert.Pre_finite_inputs.S1024x50x1024x1 .f32) (k : FVec Ideal Cert.Pre_finite_inputs.S1x1x64x1 .f32)
    (h : Cert.Pre_finite_inputs.fn (F := Ideal) x k = fun _ => 1#1) :
    (∀ i, ∃ r : ℝ, x i = (r : EReal)) ∧ (∀ i, ∃ r : ℝ, k i = (r : EReal)) := by
  have h0 := congrFun h ValueIdx.ix0
  dsimp only [Cert.Pre_finite_inputs.fn] at h0
  obtain ⟨hx, hk⟩ := IntOp.andi_eq_one.1 h0
  refine ⟨fun i => ?_, fun i => ?_⟩
  · have e := Host.reduce_andi_all _ _ _ _ _ hx i
    exact real_of_abs_lt_inf (x i) e
  · have e := Host.reduce_andi_all _ _ _ _ _ hk i
    exact real_of_abs_lt_inf (k i) e

end Cert.Actors

end
-- ==== Proof.Sel.lean ====
/- The selection matrix of the kernel body, read at an index: entry (f, a) is minus the weight of actor a when the
   feature f is the actor's column 16 a, and zero elsewhere. -/
import proofs.«163311_g10677288698162_week1_w2_857_21_alg».proof.Proof.Gen.KernelIdeal.Skeleton
import Idealize.ShloMosaic.PureOps.Ideal.Laws
import Idealize.ShloMosaic.Lib.Affine
import Idealize.ShloMosaic.Lib.ValueIdx
import Idealize.ShloMosaic.Lib.ValueLayout
import Idealize.ShloMosaic.Lib.Pipeline.Value

noncomputable section

namespace Cert.KernelIdeal.Payload

open Cert.KernelIdeal Idealize.ShloMosaic Idealize.ShloMosaic.ValueIdx

/-- The 32-bit comparison of a row number f < 1024 with 16 times a column number a < 64: no product wraps, so the
    words are equal exactly when the numbers are. -/
theorem cmpi_row_col (f : Fin 1024) (a : Fin 64) :
    IntOp.cmpi .eq (BitVec.ofNat 32 f.val) (IntOp.muli (BitVec.ofNat 32 a.val) 16#32) = 1#1 ↔ f.val = 16 * a.val := by
  rw [IntOp.cmpi_eq]
  unfold IntOp.muli
  rw [← BitVec.toNat_inj, BitVec.toNat_mul, BitVec.toNat_ofNat, BitVec.toNat_ofNat]
  have hf := f.isLt
  have ha := a.isLt
  show f.val % 2 ^ 32 = a.val % 2 ^ 32 * 16 % 2 ^ 32 ↔ _
  omega

/-- The selection matrix at (f, a). -/
theorem sel_apply (K : FVec Ideal S1x64 .f32) (h0 : S1024x64.Iotas .tc 32 [0]) (h1 : S1024x64.Iotas .tc 32 [1])
    (hc : S1x64.ShapeCasts S1x64) (hb : S1x64.Broadcasts S1024x64) (f : Fin 1024) (a : Fin 64) :
    select (cmpi .eq (iota .tc S1024x64 32 [0] h0) (muli (iota .tc S1024x64 32 [1] h1) (broadcast S1024x64 16#32)))
        (broadcastTo S1024x64
          (shapeCast S1x64 (subf (broadcast S1x64 (Scalar.ofBits (F := Ideal) .f32 0x00000000#32)) (shapeCast S1x64 K hc)) hc) hb)
        (broadcast S1024x64 (Scalar.ofBits (F := Ideal) .f32 0x00000000#32)) (ix2 f a)
      = if f.val = 16 * a.val then 0 - K (ix2 (0 : Fin 1) a) else 0 := by
  have hz : Scalar.ofBits (F := Ideal) .f32 0x00000000#32 = (0 : EReal) := Ideal.ofBits_zero_f32
  rw [select_apply, broadcast_apply, broadcastTo_1b_ab_apply, shapeCast_self, subf_apply, broadcast_apply, shapeCast_self, hz]
  have hcond : cmpi .eq (iota .tc S1024x64 32 [0] h0) (muli (iota .tc S1024x64 32 [1] h1) (broadcast S1024x64 16#32)) (ix2 f a)
      = IntOp.cmpi .eq (BitVec.ofNat 32 f.val) (IntOp.muli (BitVec.ofNat 32 a.val) 16#32) := by
    show IntOp.cmpi .eq (iota .tc S1024x64 32 [0] h0 (ix2 f a)) (IntOp.muli (iota .tc S1024x64 32 [1] h1 (ix2 f a)) 16#32) = _
    rw [iota_single_apply, iota_single_apply]
  rw [hcond]
  by_cases h : f.val = 16 * a.val
  · rw [(cmpi_row_col f a).2 h, select_one, if_pos h]
  · rw [eq_zero_of_ne_one (fun e => h ((cmpi_row_col f a).1 e)), select_zero, if_neg h]

end Cert.KernelIdeal.Payload

end
-- ==== Proof.Lanes.lean ====
/- The left operand of the kernel body's product, read at an index: the sum over the 50 steps of the block, with the
   feature axis f = 128 g + c split into its 8 groups of 128 lanes. -/
import proofs.«163311_g10677288698162_week1_w2_857_21_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Idealize.ShloMosaic Idealize.ShloMosaic.ValueIdx

/-- The sum over axis 1 of a [32, 50, 8, 128] block at (r, g, c) is the sum over the 50 steps l of the block at (r, l, g, c). -/
theorem stepSum_apply (X : FVec Ideal S32x50x8x128 .f32) (hr : S32x50x8x128.Reduces [1] S32x8x128)
    (hφ : FKind.Formats .f32) (hacc : (0x00000000#32 : BitVec 32) = 0x00000000#32) (r : Fin 32) (g : Fin 8) (c : Fin 128) :
    multiReduction (F := Ideal) .add [1] S32x8x128 X 0x00000000#32 hr hφ hacc (ix3 r g c) = ∑ l : Fin 50, X (ix4 r l g c) := by
  refine (Ideal.multiReduction_add_single X 0x00000000#32 hr hφ hacc (ix3 r g c)).trans ?_
  show ∑ l : Fin 50, X (hr.lift (ix3 r g c) l) = _
  refine Finset.sum_congr rfl fun l _ => congrArg X ?_
  funext ax
  apply Fin.ext
  match ax with
  | ⟨0, _⟩ => rfl
  | ⟨1, _⟩ => rfl
  | ⟨2, _⟩ => rfl
  | ⟨3, _⟩ => rfl

/-- The same after the cast [32, 8, 128] → [32, 1024]: feature f sits in group f / 128 at lane f % 128. -/
theorem featSum_apply (X : FVec Ideal S32x50x8x128 .f32) (hc0 : S32x50x8x128.ShapeCasts S32x50x8x128)
    (hr : S32x50x8x128.Reduces [1] S32x8x128) (hφ : FKind.Formats .f32) (hacc : (0x00000000#32 : BitVec 32) = 0x00000000#32)
    (hc : S32x8x128.ShapeCasts S32x1024) (r : Fin 32) (f : Fin 1024) :
    shapeCast S32x1024 (multiReduction (F := Ideal) .add [1] S32x8x128 (shapeCast S32x50x8x128 X hc0) 0x00000000#32 hr hφ hacc) hc (ix2 r f)
      = ∑ l : Fin 50, X (ix4 r l (⟨f.val / 128, by omega⟩ : Fin 8) (⟨f.val % 128, by omega⟩ : Fin 128)) := by
  rw [shapeCast_self]
  refine (shapeCast_apply _ hc (ix2 r f) (ix3 r (⟨f.val / 128, by omega⟩ : Fin 8) (⟨f.val % 128, by omega⟩ : Fin 128)) ?_).trans
    (stepSum_apply X hr hφ hacc r _ _)
  rw [Shape.rowMajor_val_three, Shape.rowMajor_val_two]
  show (r.val * 8 + f.val / 128) * 128 + f.val % 128 = r.val * 1024 + f.val
  omega

end Cert.KernelIdeal.Payload

end
-- ==== Proof.Payload.lean ====
/- The kernel body's stored value read at an index. -/
import proofs.«163311_g10677288698162_week1_w2_857_21_alg».proof.Proof.Gen.KernelIdeal.Skeleton
import proofs.«163311_g10677288698162_week1_w2_857_21_alg».proof.Proof.Sel
import proofs.«163311_g10677288698162_week1_w2_857_21_alg».proof.Proof.Lanes
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The body's product [32, 1024] · [1024, 64] into the zero accumulator, at (r, a): the sum over the 1024 features of
    the products of the entries. -/
theorem matmul_apply_ix (A : FVec Ideal S32x1024 .f32) (B : FVec Ideal S1024x64 .f32) (r : Fin 32) (a : Fin 64) :
    matmul dot_S32x1024_S1024x64_S32x64_1_0_0_1_n_n none A B (constant (F := Ideal) S32x64 .f32 0x00000000#32) (ix2 r a)
      = ∑ f : Fin 1024, A (ix2 r f) * B (ix2 f a) := by
  show FloatOps.matmul dot_S32x1024_S1024x64_S32x64_1_0_0_1_n_n none A B (constant (F := Ideal) S32x64 .f32 0x00000000#32) (ix2 r a) = _
  rw [Ideal.matmul_constant_zero_apply,
    ← Equiv.sum_comp (contrEquiv1 dot_S32x1024_S1024x64_S32x64_1_0_0_1_n_n 1024 rfl rfl).symm]
  refine Finset.sum_congr rfl fun f _ => ?_
  have cv := contrEquiv1_symm_val dot_S32x1024_S1024x64_S32x64_1_0_0_1_n_n 1024 rfl rfl f
  have hl : dot_S32x1024_S1024x64_S32x64_1_0_0_1_n_n.lhsIdx (ix2 r a)
      ((contrEquiv1 dot_S32x1024_S1024x64_S32x64_1_0_0_1_n_n 1024 rfl rfl).symm f) = ix2 r f := by
    funext ax; apply Fin.ext
    match ax with
    | ⟨0, _⟩ => simp [DotDims.lhsIdx, dot_S32x1024_S1024x64_S32x64_1_0_0_1_n_n]; rfl
    | ⟨1, _⟩ => simp [DotDims.lhsIdx, dot_S32x1024_S1024x64_S32x64_1_0_0_1_n_n]; exact cv
  have hr : dot_S32x1024_S1024x64_S32x64_1_0_0_1_n_n.rhsIdx (ix2 r a)
      ((contrEquiv1 dot_S32x1024_S1024x64_S32x64_1_0_0_1_n_n 1024 rfl rfl).symm f) = ix2 f a := by
    funext ax; apply Fin.ext
    match ax with
    | ⟨0, _⟩ => simp [DotDims.rhsIdx, dot_S32x1024_S1024x64_S32x64_1_0_0_1_n_n]; exact cv
    | ⟨1, _⟩ => simp [DotDims.rhsIdx, dot_S32x1024_S1024x64_S32x64_1_0_0_1_n_n]; rfl
  rw [hl, hr]

theorem pay_apply (X : FVec Ideal S32x50x8x128 .f32) (K : FVec Ideal S1x64 .f32) (r : Fin 32) (a : Fin 64) :
    k0_pay1 (F := Ideal) X K (ix2 r a)
      = (∑ l : Fin 50, X (ix4 r l (⟨a.val / 8, by omega⟩ : Fin 8) (⟨16 * (a.val % 8), by omega⟩ : Fin 128)))
          * (0 - K (ix2 (0 : Fin 1) a)) := by
  unfold k0_pay1
  dsimp only
  rw [matmul_apply_ix]
  rw [Finset.sum_eq_single (⟨16 * a.val, by omega⟩ : Fin 1024)]
  · rw [featSum_apply, sel_apply, if_pos rfl]
    refine congrArg (· * (0 - K (ix2 (0 : Fin 1) a))) (Finset.sum_congr rfl fun l _ => congrArg X ?_)
    have e1 : (⟨16 * a.val / 128, by omega⟩ : Fin 8) = ⟨a.val / 8, by omega⟩ := Fin.ext (by show 16 * a.val / 128 = a.val / 8; omega)
    have e2 : (⟨16 * a.val % 128, by omega⟩ : Fin 128) = ⟨16 * (a.val % 8), by omega⟩ := Fin.ext (by show 16 * a.val % 128 = 16 * (a.val % 8); omega)
    rw [e1, e2]
  · intro f _ hf
    rw [sel_apply, if_neg (fun e => hf (Fin.ext e)), mul_zero]
  · intro h
    exact absurd (Finset.mem_univ _) h

end Cert.KernelIdeal.Payload

end
-- ==== Proof.Blocks.lean ====
/-
  The kernel's side, from the region's arrays to the result array.

  The call's first operand is `x` re-laid `[1024, 50, 1024, 1] → [1024, 50, 8, 128]` (feature `f = 128 g + lane`), its
  second the weights re-laid `[1, 1, 64, 1] → [1, 64]`; grid point `t` (of 32) reads batch rows `32 t … 32 t + 31` of the
  first whole, the second whole, and writes rows `32 t … 32 t + 31` of the `[1024, 64]` result. So what point `t` writes
  at `(r, a)` is the field at batch row `32 t + r` and actor `a` (the payload read at an index, `pay_apply`, with the
  blocks read where they sit in the arrays), the 32 blocks tile the result, and the last host line re-lays
  `[1024, 64] → [1024, 64, 1]`.
-/
import proofs.«163311_g10677288698162_week1_w2_857_21_alg».proof.Proof.Gen.KernelIdeal.Frame
import proofs.«163311_g10677288698162_week1_w2_857_21_alg».proof.Proof.Spec
import proofs.«163311_g10677288698162_week1_w2_857_21_alg».proof.Proof.Payload
import Idealize.ShloMosaic.Lib.Pipeline.Value
import Idealize.ShloMosaic.Lib.StableHlo.Run
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first operand as the region finds it: `x` re-laid. -/
theorem V_v0 (c : Dev nD) : (V m c main_v0 : S1024x50x8x128.Idx → EReal)
    = shapeCast S1024x50x8x128 (m ((c : Thread nD τ).loc main_arg0) : S1024x50x1024x1.Idx → EReal)
        Facts₀.shapeCasts_S1024x50x1024x1_S1024x50x8x128 := by
  show StableHlo.after hostOps0 (fun b => m (c, b)) (Proc.devRef .tc main_v0) = _
  after_results
  rfl

/-- The second operand as the region finds it: the weights re-laid. -/
theorem V_v1 (c : Dev nD) : (V m c main_v1 : S1x64.Idx → EReal)
    = shapeCast S1x64 (m ((c : Thread nD τ).loc main_arg1) : S1x1x64x1.Idx → EReal)
        Facts₀.shapeCasts_S1x1x64x1_S1x64 := by
  show StableHlo.after hostOps0 (fun b => m (c, b)) (Proc.devRef .tc main_v1) = _
  after_results
  rfl

/-- The printed index maps, decided over the 32 grid points: the first operand's and the result's blocks move with the
    point along the batch axis, the weights' block does not move. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 32 := lt_of_lt_of_eq t.isLt (N_0 : cfg0.N = 32)

/-- The first operand's block at point `t`, at `(r, l, g, q)`, is `x` at batch row `32 t + r`, step `l`, feature
    `128 g + q`: the block sits at rows `32 t …` of the re-laid array, whose `(b, l, g, q)` is `x`'s `(b, l, 128 g + q, 0)`
    (the same row-major position). -/
theorem iblk0_apply (c : Dev nD) (t : Fin cfg0.N) (r : Fin 32) (l : Fin 50) (g : Fin 8) (q : Fin 128)
    (b : Fin 1024) (f : Fin 1024) (hb : b.val = 32 * t.val + r.val) (hf : f.val = 128 * g.val + q.val) :
    (iblk m c 0 t : S32x50x8x128.Idx → EReal) (ix4 r l g q)
      = (m ((c : Thread nD τ).loc main_arg0) : S1024x50x1024x1.Idx → EReal) (ix4 b l f (0 : Fin 1)) := by
  obtain ⟨e0, e1, e2, e3, -⟩ := idx_facts t
  have ht := lt_N t
  unfold iblk
  rw [View.read_apply]
  show V m c main_v0 _ = _
  rw [V_v0]
  refine shapeCast_apply _ _ _ (ix4 b l f (0 : Fin 1)) ?_
  rw [Shape.rowMajor_val_four, Shape.rowMajor_val_four]
  show ((b.val * 50 + l.val) * 1024 + f.val) * 1 + 0
    = (((win0_0.index t (0 : Fin 4) * 32 + 1 * r.val) * 50 + (win0_0.index t (1 : Fin 4) * 50 + 1 * l.val)) * 8
        + (win0_0.index t (2 : Fin 4) * 8 + 1 * g.val)) * 128 + (win0_0.index t (3 : Fin 4) * 128 + 1 * q.val)
  rw [e0, e1, e2, e3, hb, hf]
  omega

/-- The weights' block at any point, at `(0, a)`, is the weight of actor `a`. -/
theorem iblk1_apply (c : Dev nD) (t : Fin cfg0.N) (a : Fin 64) :
    (iblk m c 1 t : S1x64.Idx → EReal) (ix2 (0 : Fin 1) a)
      = (m ((c : Thread nD τ).loc main_arg1) : S1x1x64x1.Idx → EReal) (ix4 (0 : Fin 1) (0 : Fin 1) a (0 : Fin 1)) := by
  obtain ⟨-, -, -, -, e4, e5, -⟩ := idx_facts t
  unfold iblk
  rw [View.read_apply]
  show V m c main_v1 _ = _
  rw [V_v1]
  refine shapeCast_apply _ _ _ (ix4 (0 : Fin 1) (0 : Fin 1) a (0 : Fin 1)) ?_
  rw [Shape.rowMajor_val_four, Shape.rowMajor_val_two]
  show ((0 * 1 + 0) * 64 + a.val) * 1 + 0
    = (win0_1.index t (0 : Fin 2) * 1 + 1 * 0) * 64 + (win0_1.index t (1 : Fin 2) * 64 + 1 * a.val)
  rw [e4, e5]
  omega

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The `[1024, 64]` result of the call as one function of the argument arrays: the field at `(b, a)`. -/
def G2 (c : Dev nD) : S1024x64.Idx → EReal := fun i =>
  Cert.Actors.fieldAt (m ((c : Thread nD τ).loc main_arg0)) (m ((c : Thread nD τ).loc main_arg1)) (i 0) (i 1)

/-- An element `(r, a)` of the result's block at point `t` sits at `(32 t + r, a)` of the result. -/
theorem emb2 (t : Fin cfg0.N) (r : Fin 32) (a : Fin 64) (b : Fin 1024) (hb : b.val = 32 * t.val + r.val) :
    (((cfg0.win 2).blk t).view.emb (ix2 r a) : S1024x64.Idx) = ix2 b a := by
  obtain ⟨-, -, -, -, -, -, e6, e7⟩ := idx_facts t
  funext d; apply Fin.ext
  match d with
  | ⟨0, _⟩ => show win0_2.index t (0 : Fin 2) * 32 + 1 * r.val = b.val; rw [e6, hb]; omega
  | ⟨1, _⟩ => show win0_2.index t (1 : Fin 2) * 64 + 1 * a.val = a.val; rw [e7]; omega

/-- WHAT POINT `t` WRITES BACK is block `t` of `G2`: the stored value at `(r, a)` is the sum over the steps of the
    first block at feature `16 a = 128 (a / 8) + 16 (a % 8)`, times minus the weight, with each block read where it sits. -/
theorem flushed_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold out0_2
  rw [View.canon_unit_zero hz2]
  simp only [View.ld_unit_zero (S := S32x50x8x128) hz4, View.ld_unit_zero (S := S1x64) hz2]
  funext j
  obtain ⟨r, a, rfl⟩ : ∃ (r : Fin 32) (a : Fin 64), j = ix2 r a := ⟨j 0, j 1, eq_ix2 j⟩
  have ht := lt_N t
  show k0_pay1 (F := Ideal) (iblk m c 0 t) (iblk m c 1 t) (ix2 r a) = G2 m c (((cfg0.win 2).blk t).view.emb (ix2 r a))
  rw [emb2 t r a ⟨32 * t.val + r.val, by omega⟩ rfl]
  refine (Cert.KernelIdeal.Payload.pay_apply (iblk m c 0 t) (iblk m c 1 t) r a).trans ?_
  show _ = Cert.Actors.fieldAt _ _ _ _
  unfold Cert.Actors.fieldAt
  refine congrArg₂ (· * ·) (Finset.sum_congr rfl fun l _ => ?_) (congrArg (fun z : EReal => 0 - z) ?_)
  · exact iblk0_apply m c t r l _ _ _ (Cert.Actors.col a) rfl (by
      show 16 * a.val = 128 * (a.val / 8) + 16 * (a.val % 8); omega)
  · exact iblk1_apply m c t a

/-- An index of the result is in point `t`'s block iff each coordinate is in the block's range on its axis. -/
theorem mem_blk2 (t : Fin cfg0.N) (i : S1024x64.Idx) :
    i ∈ ((cfg0.win 2).blk t).view.set ↔ ∀ a : Fin 2, win0_2.index t a * S32x64.size a ≤ (i a).val
      ∧ (i a).val < win0_2.index t a * S32x64.size a + S32x64.size a := by
  show i ∈ ((View.whole main_v2).slice (win0_2.rect t)).set ↔ _
  rw [View.set_slice_whole, Rect.mem_set_unit]
  exact Iff.rfl

/-- The 32 blocks of 32 rows tile the result: row `b` is in the block of point `b / 32`. -/
theorem cover2 (i : S1024x64.Idx) :
    ∃ t : Fin cfg0.N, (cfg0.win 2).flush t = true ∧ i ∈ ((cfg0.win 2).blk t).view.set := by
  have hi0 : (i 0).val < 1024 := (i 0).isLt
  have hi1 : (i 1).val < 64 := (i 1).isLt
  have hN : cfg0.N = 32 := N_0
  refine ⟨⟨(i 0).val / 32, by rw [hN]; omega⟩, flush0_2 _, ?_⟩
  obtain ⟨-, -, -, -, -, -, e6, e7⟩ := idx_facts ⟨(i 0).val / 32, by rw [hN]; omega⟩
  rw [mem_blk2]
  intro a
  match a with
  | ⟨0, _⟩ =>
    show win0_2.index ⟨(i 0).val / 32, _⟩ (0 : Fin 2) * 32 ≤ (i 0).val
      ∧ (i 0).val < win0_2.index ⟨(i 0).val / 32, _⟩ (0 : Fin 2) * 32 + 32
    rw [e6]; show (i 0).val / 32 * 32 ≤ (i 0).val ∧ (i 0).val < (i 0).val / 32 * 32 + 32; omega
  | ⟨1, _⟩ =>
    show win0_2.index ⟨(i 0).val / 32, _⟩ (1 : Fin 2) * 64 ≤ (i 1).val
      ∧ (i 1).val < win0_2.index ⟨(i 0).val / 32, _⟩ (1 : Fin 2) * 64 + 64
    rw [e7]; omega

/-- THE CALL'S RESULT ARRAY after the run is `G2`. -/
theorem final2 (c : Dev nD) : (dats m 0 c).arrAt 2 cfg0.N = G2 m c :=
  (dats m 0 c).arrAt_eq_of_cover 2 (G2 m c) (fun t _ => flushed_eq m c t) cover2

/-- The last host line re-lays the call's result `[1024, 64] → [1024, 64, 1]`; the call's result is `G2`. -/
theorem tail_v3 (c : Dev nD) :
    (Pipeline.afterTail₀ cfgs (dats m) 0 (V0 m) [hostOps1] c main_v3 : S1024x64x1.Idx → EReal)
      = shapeCast S1024x64x1 (G2 m c) Facts₀.shapeCasts_S1024x64_S1024x64x1 := by
  unfold Pipeline.afterTail₀
  show StableHlo.after hostOps1 _ (Proc.devRef .tc main_v3) = _
  after_results
  funext i
  exact congrFun (congrArg (fun z : S1024x64.Idx → EReal => shapeCast S1024x64x1 z Facts₀.shapeCasts_S1024x64_S1024x64x1)
    ((Pipeline.withArrays_arr spec0 launch0.win.arr_inj c _ _ 2).trans (final2 m c))) i

/-- Re-laid, `G2` is the field: `(b, a, 0)` of `[1024, 64, 1]` has the row-major position of `(b, a)` of `[1024, 64]`. -/
theorem relaid (c : Dev nD) :
    shapeCast S1024x64x1 (G2 m c) Facts₀.shapeCasts_S1024x64_S1024x64x1
      = Cert.Actors.field (m ((c : Thread nD τ).loc main_arg0)) (m ((c : Thread nD τ).loc main_arg1)) := by
  funext i
  obtain ⟨b, a, z, rfl⟩ : ∃ (b : Fin 1024) (a : Fin 64) (z : Fin 1), i = ix3 b a z := ⟨i 0, i 1, i 2, eq_ix3 i⟩
  refine (shapeCast_apply _ _ (ix3 b a z) (ix2 b a) ?_).trans rfl
  rw [Shape.rowMajor_val_two, Shape.rowMajor_val_three]
  show b.val * 64 + a.val = (b.val * 64 + a.val) * 1 + z.val
  have := z.isLt
  omega

/-- THE RUN, READ: every weakly fair execution of the kernel's program ends with the result at the field of the
    argument arrays, and the arguments unchanged. -/
theorem run : θ_run (defs (F := Ideal)) (onTc (τ := τ) (main (F := Ideal))) ⟨m, fun _ => 0, ρ⟩ fun r => ∀ c : Dev nD,
      r.2.mem ((c : Thread nD τ).loc main_v3)
        = Cert.Actors.field (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans ((tail_v3 m c).trans (relaid m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefOut.lean ====
/-
  The reference's result as one term of its two arguments.

  jnp.take along axis 2 at the 64 constant columns 0, 16, ..., 1008: the column table is first normalised
  (a negative entry would have 1024 added), then broadcast to a column of start indices; the gathered slab is
  kept where the start index lies in [0, 1023] and replaced by NaN elsewhere. The slab is multiplied by the
  weights broadcast over batch rows and steps, summed over the steps from zero, and multiplied by minus one.
-/
import proofs.«163311_g10677288698162_week1_w2_857_21_alg».proof.Proof.Gen.ReferenceIdeal
import Idealize.ShloMosaic.Lib.ValueIdx

noncomputable section

namespace Cert.ReferenceIdeal.RefValue

open Cert.ReferenceIdeal Cert.ReferenceIdeal.Gen Idealize.ShloMosaic

/-- The column table: entry `a` is `16 a`. -/
def cols : IVec S64 32 := fun i => lit0 (S64.rowMajor i)

/-- The table with negative entries moved up by the axis length 1024 (none is negative). -/
def colsN : IVec S64 32 :=
  select (cmpi .slt cols (broadcastInDim S64 ![] bcast_S_S64 (constantI S_ 32 0#32)))
    (addi cols (broadcastInDim S64 ![] bcast_S_S64 (constantI S_ 32 1024#32))) cols

/-- The start indices of the gather: the table as a column `[64, 1]`. -/
def starts : IVec S64x1 32 := broadcastInDim S64x1 ![0] bcast_S64_S64x1_0 colsN

/-- Per start index: is it in `[0, 1023]`? -/
def inRange : IVec S64x1 1 :=
  andi (cmpi .sge starts (broadcastInDim S64x1 ![] bcast_S_S64x1 (constantI S_ 32 0#32)))
    (cmpi .sle starts (broadcastInDim S64x1 ![0, 1] bcast_S1x1_S64x1_0_1
      (broadcastInDim S1x1 ![1] bcast_S1_S1x1_1 (constantI S1 32 1023#32))))

/-- Per actor: are all components of its start index in range? (There is one component.) -/
def mask : IVec S64 1 := Host.reduce IntOp.andi inRange (constantI S_ 1 1#1) reducesTo_S64x1_S64_d1 h_S_

/-- The actor columns of `x`: the gathered slab where the start index is in range, NaN elsewhere. -/
def taken (x : FVec Ideal S1024x50x1024x1 .f32) : FVec Ideal S1024x50x64x1 .f32 :=
  select (broadcastInDim S1024x50x64x1 ![2] bcast_S64_S1024x50x64x1_2 mask)
    (Host.gather gather_S1024x50x1024x1_S64x1_S1024x50x64x1_013_2_n_n_2_1_10245011 x starts)
    (broadcastInDim S1024x50x64x1 ![] bcast_S_S1024x50x64x1 (constant (F := Ideal) S_ .f32 0x7FC00000#32))

/-- The weighted actor columns, before the sum over the steps. -/
def weighted (x : FVec Ideal S1024x50x1024x1 .f32) (k : FVec Ideal S1x1x64x1 .f32) : FVec Ideal S1024x50x64x1 .f32 :=
  mulf (broadcastInDim S1024x50x64x1 ![0, 1, 2, 3] bcast_S1x1x64x1_S1024x50x64x1_0_1_2_3 k) (taken x)

/-- The reference's result as the composed term of its operations. -/
def out (x : FVec Ideal S1024x50x1024x1 .f32) (k : FVec Ideal S1x1x64x1 .f32) : FVec Ideal S1024x64x1 .f32 :=
  mulf (broadcastInDim S1024x64x1 ![] bcast_S_S1024x64x1 (constant (F := Ideal) S_ .f32 0xBF800000#32))
    (Host.reduceAdd (F := Ideal) (weighted x k) (constant (F := Ideal) S_ .f32 0x00000000#32)
      reducesTo_S1024x50x64x1_S1024x64x1_d1 h_S_)

end Cert.ReferenceIdeal.RefValue

end
-- ==== Proof.RefRun.lean ====
/-
  The reference's run: its @main, with the two outlined functions unfolded at their calls, is a straight line of
  31 host operations; every weakly fair execution terminates with the result buffer at the composed term `out`
  of the two arguments, the arguments unchanged.
-/
import proofs.«163311_g10677288698162_week1_w2_857_21_alg».proof.Proof.RefOut
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the calls unfolded: the column table; the take's 23 lines over the call's
    buffers, with the one select of the nested where in place of its call; @main's last seven. -/
abbrev ops : List (HloOp τ sig (Elt F)) :=
  [ nullary main_c (fun i => lit0 (S64.rowMajor i)),
    TRef.nullary main_call0.c (constantI S_ 32 0#32),
    TRef.unary main_call0.c main_call0.v0 (broadcastInDim S64 ![] bcast_S_S64),
    TRef.binary (.of main_c) main_call0.v0 main_call0.v1 (cmpi .slt),
    TRef.nullary main_call0.c_0 (constantI S_ 32 1024#32),
    TRef.unary main_call0.c_0 main_call0.v2 (broadcastInDim S64 ![] bcast_S_S64),
    TRef.binary (.of main_c) main_call0.v2 main_call0.v3 addi,
    TRef.ternary main_call0.v1 main_call0.v3 (.of main_c) main_call0.call0.v0 select,
    TRef.unary main_call0.call0.v0 main_call0.v5 (broadcastInDim S64x1 ![0] bcast_S64_S64x1_0),
    TRef.nullary main_call0.c_1 (constantI S1 32 1023#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg0) main_call0.v5 main_call0.v13 (fun x i => Host.gather gather_S1024x50x1024x1_S64x1_S1024x50x64x1_013_2_n_n_2_1_10245011 x i),
    TRef.unary main_call0.v12 main_call0.v14 (broadcastInDim S1024x50x64x1 ![2] bcast_S64_S1024x50x64x1_2),
    TRef.nullary main_call0.cst (constant S_ .f32 0x7FC00000#32),
    TRef.unary main_call0.cst main_call0.v15 (broadcastInDim S1024x50x64x1 ![] bcast_S_S1024x50x64x1),
    TRef.ternary main_call0.v14 main_call0.v13 main_call0.v15 main_call0.v16 select,
    unary main_arg1 main_v1 (broadcastInDim S1024x50x64x1 ![0, 1, 2, 3] bcast_S1x1x64x1_S1024x50x64x1_0_1_2_3 : (⟨S1x1x64x1, .f32⟩ : BufTy).Contents (Elt F) → (⟨S1024x50x64x1, .f32⟩ : BufTy).Contents (Elt F)),
    binary main_v1 main_v0 main_v2 (mulf : (⟨S1024x50x64x1, .f32⟩ : BufTy).Contents (Elt F) → (⟨S1024x50x64x1, .f32⟩ : BufTy).Contents (Elt F) → (⟨S1024x50x64x1, .f32⟩ : BufTy).Contents (Elt F)),
    nullary main_cst (constant S_ .f32 0x00000000#32),
    binary main_v2 main_cst main_v3 ((fun x v => Host.reduceAdd x v reducesTo_S1024x50x64x1_S1024x64x1_d1 h_S_) : (⟨S1024x50x64x1, .f32⟩ : BufTy).Contents (Elt F) → (⟨S_, .f32⟩ : BufTy).Contents (Elt F) → (⟨S1024x64x1, .f32⟩ : BufTy).Contents (Elt F)),
    nullary main_cst_0 (constant S_ .f32 0xBF800000#32),
    unary main_cst_0 main_v4 (broadcastInDim S1024x64x1 ![] bcast_S_S1024x64x1 : (⟨S_, .f32⟩ : BufTy).Contents (Elt F) → (⟨S1024x64x1, .f32⟩ : BufTy).Contents (Elt F)),
    binary main_v4 main_v3 main_v5 (mulf : (⟨S1024x64x1, .f32⟩ : BufTy).Contents (Elt F) → (⟨S1024x64x1, .f32⟩ : BufTy).Contents (Elt F) → (⟨S1024x64x1, .f32⟩ : BufTy).Contents (Elt F)) ]

-- thirty-one binds re-associated under the chain
set_option maxRecDepth 1024 in
/-- @main is that straight line: the two functions' definitions unfolded at their calls and the records at their
    fields, both sides are one chain of steps once sequencing is reassociated. -/
theorem main_eq (c : Dev nD) : main (F := F) c = seq ops := by
  simp only [main, fn_take.body, fn_where.body, seq, bind_assoc, pure_bind]

attribute [local irreducible] Host.reduce Host.gather Host.reduceAdd broadcastInDim mulf select cmpi addi andi constant constantI in
set_option maxRecDepth 8192 in
set_option maxHeartbeats 400000 in
/-- The fold at the result buffer is `out` by computation: each operation's result decides whether the buffer read
    is the one it writes, and the typed references' casts are the identity at these literal references. Every
    operation's own function stays folded meanwhile (the sum over the steps above all: at the extended reals it is a
    sum over a set of 3 276 800 indices): the equation never looks inside them. -/
theorem out_eq (V : Valuation τ sig (Elt Ideal)) :
    after (ops (F := Ideal)) V (main_v5 : DevRef τ sig) = out (V (main_arg0 : DevRef τ sig)) (V (main_arg1 : DevRef τ sig)) := by
  simp only [after_cons, after_nil]
  rfl

theorem arg0_eq (V : Valuation τ sig (Elt Ideal)) :
    after (ops (F := Ideal)) V (main_arg0 : DevRef τ sig) = V (main_arg0 : DevRef τ sig) := by
  simp only [after_cons, after_nil]
  rfl

theorem arg1_eq (V : Valuation τ sig (Elt Ideal)) :
    after (ops (F := Ideal)) V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., nullary_bufs_sub .., binary_bufs_sub .., nullary_bufs_sub .., unary_bufs_sub ..,
    binary_bufs_sub ..⟩

/-- On the one device, from any memory with zero counters: every weakly fair execution of @main terminates with
    the result buffer at `out` of the two arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v5).trans (out_eq _), (h c main_arg0).trans (arg0_eq _),
      (h c main_arg1).trans (arg1_eq _)⟩)
    (run_seq scopedRefs_eq scopedSems_eq (defs (F := Ideal)) (main (F := Ideal)) (fun _ => ops) main_eq (fun _ => ops_sub) m ρ)

end Cert.ReferenceIdeal.RefValue

end
-- ==== Proof.HostReads.lean ====
/- Two host operations of the reference read back: its gather at an index, and a reduce by `and` of an array of ones. -/
import proofs.«163311_g10677288698162_week1_w2_857_21_alg».proof.Proof.Gen.ReferenceIdeal
import Idealize.ShloMosaic.Lib.Affine
import Idealize.ShloMosaic.Lib.ValueIdx
import Idealize.ShloMosaic.PureOps.Reduce

noncomputable section

namespace Cert.ReferenceIdeal.RefValue

open Cert.ReferenceIdeal Cert.ReferenceIdeal.Gen Idealize.ShloMosaic Idealize.ShloMosaic.ValueIdx

/-- The reference's gather read at (b, l, a, 0): the operand at column = the start index idx[a, 0] read signed and clamped into [0, 1023]; the other three coordinates pass through. -/
theorem gather_apply {α : Type} (x : S1024x50x1024x1.Idx → α) (idx : IVec S64x1 32) (b : Fin 1024) (l : Fin 50) (a : Fin 64) :
    Host.gather gather_S1024x50x1024x1_S64x1_S1024x50x64x1_013_2_n_n_2_1_10245011 x idx (ix4 b l a (0 : Fin 1))
      = x (ix4 b l (⟨min (idx (ix2 a (0 : Fin 1))).toInt.toNat 1023, by omega⟩ : Fin 1024) (0 : Fin 1)) := by
  unfold Host.gather
  refine congrArg x ?_
  funext d
  refine Fin.ext ?_
  show gather_S1024x50x1024x1_S64x1_S1024x50x64x1_013_2_n_n_2_1_10245011.start (ix4 b l a (0 : Fin 1)) idx d
      + gather_S1024x50x1024x1_S64x1_S1024x50x64x1_013_2_n_n_2_1_10245011.batchCoord (ix4 b l a (0 : Fin 1)) d
      + gather_S1024x50x1024x1_S64x1_S1024x50x64x1_013_2_n_n_2_1_10245011.offCoord (ix4 b l a (0 : Fin 1)) d = _
  rw [GatherDims.batchCoord_eq_zero _ _ _ List.not_mem_nil, Nat.add_zero]
  match d with
  | ⟨0, h0⟩ =>
    have hs : gather_S1024x50x1024x1_S64x1_S1024x50x64x1_013_2_n_n_2_1_10245011.start (ix4 b l a (0 : Fin 1)) idx
        (⟨0, h0⟩ : Fin S1024x50x1024x1.rank) = 0 := rfl
    rw [hs, Nat.zero_add]; rfl
  | ⟨1, h1⟩ =>
    have hs : gather_S1024x50x1024x1_S64x1_S1024x50x64x1_013_2_n_n_2_1_10245011.start (ix4 b l a (0 : Fin 1)) idx
        (⟨1, h1⟩ : Fin S1024x50x1024x1.rank) = 0 := rfl
    rw [hs, Nat.zero_add]; rfl
  | ⟨3, _⟩ => rfl
  | ⟨2, h2⟩ =>
    have hmem : (⟨2, h2⟩ : Fin S1024x50x1024x1.rank)
        ∈ gather_S1024x50x1024x1_S64x1_S1024x50x64x1_013_2_n_n_2_1_10245011.startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hmem]
    have hsi : gather_S1024x50x1024x1_S64x1_S1024x50x64x1_013_2_n_n_2_1_10245011.siIdx (ix4 b l a (0 : Fin 1))
        ⟨List.idxOf (⟨2, h2⟩ : Fin S1024x50x1024x1.rank) gather_S1024x50x1024x1_S64x1_S1024x50x64x1_013_2_n_n_2_1_10245011.startIndexMap,
          List.idxOf_lt_length_iff.2 hmem⟩ = ix2 a (0 : Fin 1) := by
      funext c; refine Fin.ext ?_
      match c with
      | ⟨0, _⟩ => rfl
      | ⟨1, _⟩ => rfl
    rw [hsi]
    rfl

/-- A left fold by `and` over one-bit words from 1, when every word met is 1, is 1. -/
theorem foldl_andi_of_all {ι : Type} (p : ι → BitVec 1) (hp : ∀ i, p i = 1#1) :
    ∀ (l : List ι) (init : BitVec 1), init = 1#1 → l.foldl (fun r i => IntOp.andi r (p i)) init = 1#1
  | [], _, h => h
  | a :: l, init, h => by
    rw [List.foldl_cons]
    exact foldl_andi_of_all p hp l _ (IntOp.andi_eq_one.2 ⟨h, hp a⟩)

/-- A reduce by `and` of an array of ones from the initial value one is one, at every result index. -/
theorem reduce_andi_of_all {s t u : Shape} {axes : List (Fin s.rank)} (p : s.Idx → BitVec 1) (init : u.Idx → BitVec 1)
    (h : s.ReducesTo axes t) (hu : 0 < u.numel) (j : t.Idx) (hp : ∀ i, p i = 1#1) (hi : init (Shape.Idx.first hu) = 1#1) :
    Host.reduce IntOp.andi p init h hu j = 1#1 := by
  rw [Host.reduce_eq_foldl]
  exact foldl_andi_of_all p hp _ _ hi

end Cert.ReferenceIdeal.RefValue

end
-- ==== Proof.RefApply.lean ====
/-
  The reference's result read at an index: at (b, a, 0) it is minus one times the sum over the 50 steps of actor
  `a`'s weight times `x` at batch row `b`, step `l`, column `16 a`.

  The column table holds `16 a` at entry `a`; no entry is negative, so the normalisation leaves it as it is; every
  entry lies in [0, 1023], so the in-range mask is one at every actor and the select keeps the gathered value; the
  gather reads column `min (16 a) 1023 = 16 a`. The sum over the steps is the host's exact sum at the ideal values,
  from the initial value zero, and the last factor's bit pattern denotes minus one.
-/
import proofs.«163311_g10677288698162_week1_w2_857_21_alg».proof.Proof.RefOut
import proofs.«163311_g10677288698162_week1_w2_857_21_alg».proof.Proof.Spec
import proofs.«163311_g10677288698162_week1_w2_857_21_alg».proof.Proof.HostReads
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx

/-! ## The column table and the integer chain over it -/

/-- Entry `a` of the table is `16 a`. -/
theorem lit0_val : ∀ a : Fin 64, lit0 a = BitVec.ofNat 32 (16 * a.val) := by decide

/-- No entry is negative: the normalisation keeps it. -/
theorem wrap_val : ∀ a : Fin 64,
    Scalar.select (IntOp.cmpi .slt (BitVec.ofNat 32 (16 * a.val)) 0#32)
      (IntOp.addi (BitVec.ofNat 32 (16 * a.val)) 1024#32) (BitVec.ofNat 32 (16 * a.val)) = BitVec.ofNat 32 (16 * a.val) := by
  decide

/-- Every entry is in `[0, 1023]`. -/
theorem inRange_val : ∀ a : Fin 64,
    IntOp.andi (IntOp.cmpi .sge (BitVec.ofNat 32 (16 * a.val)) 0#32) (IntOp.cmpi .sle (BitVec.ofNat 32 (16 * a.val)) 1023#32) = 1#1 := by
  decide

/-- Read signed and clamped into `[0, 1023]`, entry `a` is still `16 a`. -/
theorem clamp_val : ∀ a : Fin 64, min (BitVec.ofNat 32 (16 * a.val)).toInt.toNat 1023 = 16 * a.val := by decide

theorem cols_apply (a : Fin 64) : cols (ix1 a) = BitVec.ofNat 32 (16 * a.val) := by
  have h : (S64.rowMajor (ix1 a) : Fin 64) = a := Fin.ext (Shape.rowMajor_val_one (ix1 a))
  show lit0 (S64.rowMajor (ix1 a)) = _
  rw [h]; exact lit0_val a

theorem colsN_apply (a : Fin 64) : colsN (ix1 a) = BitVec.ofNat 32 (16 * a.val) := by
  show Scalar.select (IntOp.cmpi .slt (cols (ix1 a)) 0#32) (IntOp.addi (cols (ix1 a)) 1024#32) (cols (ix1 a)) = _
  rw [cols_apply]; exact wrap_val a

theorem starts_apply (a : Fin 64) (c : Fin 1) : starts (ix2 a c) = BitVec.ofNat 32 (16 * a.val) := by
  refine (congrArg colsN (funext fun e => ?_)).trans (colsN_apply a)
  match e with
  | ⟨0, _⟩ => rfl

theorem inRange_apply (i : S64x1.Idx) : inRange i = 1#1 := by
  obtain ⟨a, c, rfl⟩ : ∃ (a : Fin 64) (c : Fin 1), i = ix2 a c := ⟨i 0, i 1, eq_ix2 i⟩
  show IntOp.andi (IntOp.cmpi .sge (starts (ix2 a c)) 0#32) (IntOp.cmpi .sle (starts (ix2 a c)) 1023#32) = 1#1
  rw [starts_apply]; exact inRange_val a

/-- The mask is one at every actor. -/
theorem mask_apply (j : S64.Idx) : mask j = 1#1 :=
  reduce_andi_of_all inRange (constantI S_ 1 1#1) reducesTo_S64x1_S64_d1 h_S_ j inRange_apply rfl

/-! ## The float part -/

/-- The actor columns read at an index: `x` at column `16 a`. -/
theorem taken_apply (x : FVec Ideal S1024x50x1024x1 .f32) (b : Fin 1024) (l : Fin 50) (a : Fin 64) :
    taken x (ix4 b l a (0 : Fin 1)) = x (ix4 b l (Cert.Actors.col a) (0 : Fin 1)) := by
  have hm : broadcastInDim S1024x50x64x1 ![2] bcast_S64_S1024x50x64x1_2 mask (ix4 b l a (0 : Fin 1)) = 1#1 := mask_apply _
  have hc : (⟨min (starts (ix2 a (0 : Fin 1))).toInt.toNat 1023, by omega⟩ : Fin 1024) = Cert.Actors.col a :=
    Fin.ext (by show min (starts (ix2 a (0 : Fin 1))).toInt.toNat 1023 = 16 * a.val; rw [starts_apply]; exact clamp_val a)
  unfold taken
  rw [select_apply, hm, select_one, gather_apply, hc]

/-- The weighted actor columns read at an index. -/
theorem weighted_apply (x : FVec Ideal S1024x50x1024x1 .f32) (k : FVec Ideal S1x1x64x1 .f32) (b : Fin 1024) (l : Fin 50) (a : Fin 64) :
    weighted x k (ix4 b l a (0 : Fin 1))
      = k (ix4 (0 : Fin 1) (0 : Fin 1) a (0 : Fin 1)) * x (ix4 b l (Cert.Actors.col a) (0 : Fin 1)) := by
  have hk : broadcastInDim S1024x50x64x1 ![0, 1, 2, 3] bcast_S1x1x64x1_S1024x50x64x1_0_1_2_3 k (ix4 b l a (0 : Fin 1))
      = k (ix4 (0 : Fin 1) (0 : Fin 1) a (0 : Fin 1)) := by
    refine congrArg k (funext fun e => ?_)
    match e with
    | ⟨0, _⟩ => rfl
    | ⟨1, _⟩ => rfl
    | ⟨2, _⟩ => rfl
    | ⟨3, _⟩ => rfl
  unfold weighted
  rw [mulf_apply, hk, taken_apply]

theorem out_apply (x : FVec Ideal S1024x50x1024x1 .f32) (k : FVec Ideal S1x1x64x1 .f32) (b : Fin 1024) (a : Fin 64) :
    out x k (ix3 b a (0 : Fin 1))
      = (-1 : EReal) * ∑ l : Fin 50, k (ix4 (0 : Fin 1) (0 : Fin 1) a (0 : Fin 1)) * x (ix4 b l (Cert.Actors.col a) (0 : Fin 1)) := by
  have hR : S1024x50x64x1.Reduces [1] S1024x64x1 := by decide
  have hneg : Ideal.ofBits .f32 0xBF800000#32 = -1 := IdealRules.sign_bit.ideal_negOnePat .f32
  have h1 : out x k (ix3 b a (0 : Fin 1))
      = Ideal.ofBits .f32 0xBF800000#32
        * Ideal.hostReduceAdd reducesTo_S1024x50x64x1_S1024x64x1_d1 (weighted x k) (Ideal.ofBits .f32 0x00000000#32) (ix3 b a (0 : Fin 1)) := rfl
  rw [h1, hneg, Ideal.hostReduceAdd_single _ hR, Ideal.ofBits_zero_f32, zero_add]
  refine congrArg (fun s => (-1 : EReal) * s) (Finset.sum_congr rfl fun l _ => ?_)
  have hl : hR.lift (ix3 b a (0 : Fin 1)) l = ix4 b l a (0 : Fin 1) := by
    funext e
    refine Fin.ext ?_
    match e with
    | ⟨0, _⟩ => rfl
    | ⟨1, _⟩ => rfl
    | ⟨2, _⟩ => rfl
    | ⟨3, _⟩ => rfl
  rw [hl]; exact weighted_apply x k b l a

end Cert.ReferenceIdeal.RefValue

end
-- ==== Proof.RefValue.lean ====
/-
  The reference's run and its result read at an index, gathered: the composed term `out` of the two arguments
  (RefOut), the run that ends with the result buffer at `out` and the arguments unchanged (RefRun: `run`), and
  `out` at (b, a, 0) as minus one times the weighted sum over the steps of column `16 a` (RefApply: `out_apply`).
-/
import proofs.«163311_g10677288698162_week1_w2_857_21_alg».proof.Proof.RefRun
import proofs.«163311_g10677288698162_week1_w2_857_21_alg».proof.Proof.RefApply
-- ==== Proof.lean ====
/-
  Kernel against reference at the ideal instance, for the interaction field of the 64 actor features.

  Both programs take `x : [1024, 50, 1024, 1]` and weights `k : [1, 1, 64, 1]` and return `[1024, 64, 1]`.
  The KERNEL re-lays `x` to `[1024, 50, 8, 128]`, and per block of 32 batch rows sums over the 50 steps, re-lays the sums to
  `[32, 1024]` and multiplies by the `[1024, 64]` matrix that holds `0 − k[a]` at `(16 a, a)` and `0` elsewhere: at `(b, a)` the
  product's sum over the 1024 features keeps the one term at feature `16 a`, so the result is
  `(∑ l, x[b, l, 16 a, 0]) · (0 − k[0, 0, a, 0])` (`Cert.Actors.field`; the kernel's side is `Cert.KernelIdeal.Hand.run`).
  The REFERENCE takes the 64 columns `16 a` of `x` (a gather whose out-of-range guard never fires: `16 a ≤ 1008`),
  multiplies by the weights, sums over the steps from `0` and multiplies by `−1`:
  `(−1) · ∑ l, k[0, 0, a, 0] · x[b, l, 16 a, 0]` (`Cert.ReferenceIdeal.RefValue.out_apply`).
  The two agree by distributivity, which the extended reals have on the reals only: this is where the
  precondition is used — every entry of `x` and `k` is a real number (`Cert.Actors.finite_of_pre`,
  `Cert.Actors.neg_sum_mul`). The idealization rewrote nothing, so `preserves` is `True`.
-/
import proofs.«163311_g10677288698162_week1_w2_857_21_alg».proof.Defs
import proofs.«163311_g10677288698162_week1_w2_857_21_alg».proof.Proof.Gen.Kernel
import proofs.«163311_g10677288698162_week1_w2_857_21_alg».proof.Proof.Gen.Kernel.Skeleton
import proofs.«163311_g10677288698162_week1_w2_857_21_alg».proof.Proof.Gen.Kernel.Launch
import proofs.«163311_g10677288698162_week1_w2_857_21_alg».proof.Proof.Gen.Kernel.Points
import proofs.«163311_g10677288698162_week1_w2_857_21_alg».proof.Proof.Gen.Kernel.Frame
import proofs.«163311_g10677288698162_week1_w2_857_21_alg».proof.Proof.Gen.KernelIdeal
import proofs.«163311_g10677288698162_week1_w2_857_21_alg».proof.Proof.Gen.KernelIdeal.Skeleton
import proofs.«163311_g10677288698162_week1_w2_857_21_alg».proof.Proof.Gen.KernelIdeal.Launch
import proofs.«163311_g10677288698162_week1_w2_857_21_alg».proof.Proof.Gen.KernelIdeal.Points
import proofs.«163311_g10677288698162_week1_w2_857_21_alg».proof.Proof.Gen.KernelIdeal.Frame
import proofs.«163311_g10677288698162_week1_w2_857_21_alg».proof.Proof.Gen.ReferenceIdeal
import proofs.«163311_g10677288698162_week1_w2_857_21_alg».proof.Proof.Gen.Pre_finite_inputs
import proofs.«163311_g10677288698162_week1_w2_857_21_alg».proof.Proof.Spec
import proofs.«163311_g10677288698162_week1_w2_857_21_alg».proof.Proof.Finite
import proofs.«163311_g10677288698162_week1_w2_857_21_alg».proof.Proof.Blocks
import proofs.«163311_g10677288698162_week1_w2_857_21_alg».proof.Proof.RefValue
import Idealize.ShloMosaic.Adequacy
import Idealize.ShloMosaic.Init

noncomputable section

open scoped BigOperators

namespace Cert.Proof

open Idealize.ShloMosaic Idealize.SL.Sem Idealize.ShloMosaic.ValueIdx

/-- On finite arguments the reference's result is the field: at `(b, a, 0)` minus one times the sum of the weighted
    features is the sum of the features times minus the weight. -/
theorem out_eq_field (x : FVec Ideal Cert.ReferenceIdeal.S1024x50x1024x1 .f32) (k : FVec Ideal Cert.ReferenceIdeal.S1x1x64x1 .f32)
    (hx : ∀ i, ∃ r : ℝ, x i = (r : EReal)) (hk : ∀ i, ∃ r : ℝ, k i = (r : EReal)) :
    Cert.ReferenceIdeal.RefValue.out x k = Cert.Actors.field x k := by
  funext i
  obtain ⟨b, a, z, rfl⟩ : ∃ (b : Fin 1024) (a : Fin 64) (z : Fin 1), i = ix3 b a z := ⟨i 0, i 1, i 2, eq_ix3 i⟩
  obtain rfl : z = 0 := Subsingleton.elim _ _
  rw [Cert.ReferenceIdeal.RefValue.out_apply, Cert.Actors.field_apply]
  unfold Cert.Actors.fieldAt
  exact Cert.Actors.neg_sum_mul (fun l => x (ix4 b l (Cert.Actors.col a) (0 : Fin 1)))
    (k (ix4 (0 : Fin 1) (0 : Fin 1) a (0 : Fin 1))) (fun l => hx _) (hk _)

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the arguments, both runs end with the field of the kernel's arguments: the kernel's
    by its run, the reference's by its run, the agreement, and the law on the finite arguments the precondition gives. -/
theorem algebraic : Cert.algebraic_KernelIdeal_ReferenceIdeal := by
  intro m ρ m' ρ' hpre hagree
  refine ⟨fun c => Cert.Actors.field (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  obtain ⟨hx, hk⟩ := Cert.Actors.finite_of_pre _ _ (hpre c)
  exact out_eq_field _ _ hx hk

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
